-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x512 : Shape := ⟨3, ![8, 4096, 512]⟩
abbrev S8x512 : Shape := ⟨2, ![8, 512]⟩
abbrev S1x512x512 : Shape := ⟨3, ![1, 512, 512]⟩
abbrev S512x512 : Shape := ⟨2, ![512, 512]⟩
abbrev S512 : Shape := ⟨1, ![512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x512 : S_.BroadcastsInDim S8x512 (![] : Fin 0 → Fin S8x512.rank)
  reducesTo_S8x512_S_d0_1 : S8x512.ReducesTo [0, 1] S_
  bcast_S_S1x512x512 : S_.BroadcastsInDim S1x512x512 (![] : Fin 0 → Fin S1x512x512.rank)
  reducesTo_S1x512x512_S_d0_1_2 : S1x512x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S8x4096x512 .f32) (main_arg1 : FVec F S8x512 .f32) (main_arg2 : FVec F S1x512x512 .f32) (main_arg3 : FVec F S512x512 .f32) (main_arg4 : FVec F S512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S1x512x512 .f32 := Host.absf main_arg2
  let main_cst_2 : FVec F S_ .f32 := constant S_ .f32 0x7F800000#32
  let main_v10 : FVec F S1x512x512 .f32 := broadcastInDim S1x512x512 ![] bcast_S_S1x512x512 main_cst_2
  let main_v11 : IVec S1x512x512 1 := cmpf .olt main_v9 main_v10
  let main_c_3 : IVec S_ 1 := constantI S_ 1 1#1
  let main_v12 : IVec S_ 1 := (fun x v => Host.reduce IntOp.andi x v reducesTo_S1x512x512_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S8x4096x512 : Shape := ⟨3, ![8, 4096, 512]⟩
abbrev S8x512 : Shape := ⟨2, ![8, 512]⟩
abbrev S1x512x512 : Shape := ⟨3, ![1, 512, 512]⟩
abbrev S512x512 : Shape := ⟨2, ![512, 512]⟩
abbrev S512 : Shape := ⟨1, ![512]⟩
abbrev S1x512 : Shape := ⟨2, ![1, 512]⟩
abbrev S8x512x1 : Shape := ⟨3, ![8, 512, 1]⟩
abbrev S1x2048x512 : Shape := ⟨3, ![1, 2048, 512]⟩
abbrev S1x512x1 : Shape := ⟨3, ![1, 512, 1]⟩
abbrev S512x1 : Shape := ⟨2, ![512, 1]⟩
abbrev S2048x512 : Shape := ⟨2, ![2048, 512]⟩

abbrev nBuf : Space → Nat
  | .hbm => 12
  | .vmem => 8
  | .smem => 0
  | _ => 0

abbrev bufTy : (tb : Table) → Fin (tcTables nBuf tb) → BufTy
  | .hbm, ⟨0, _⟩ => ⟨S8x4096x512, .f32⟩
  | .hbm, ⟨1, _⟩ => ⟨S8x512, .f32⟩
  | .hbm, ⟨2, _⟩ => ⟨S1x512x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S8x512, .f32⟩
  | .hbm, ⟨7, _⟩ => ⟨S1x512, .f32⟩
  | .hbm, ⟨8, _⟩ => ⟨S8x512, .f32⟩
  | .hbm, ⟨9, _⟩ => ⟨S8x512, .f32⟩
  | .hbm, ⟨10, _⟩ => ⟨S8x512x1, .f32⟩
  | .hbm, ⟨11, _⟩ => ⟨S8x4096x512, .f32⟩
  | .local _ .vmem, ⟨0, _⟩ => ⟨S1x2048x512, .f32⟩
  | .local _ .vmem, ⟨1, _⟩ => ⟨S1x2048x512, .f32⟩
  | .local _ .vmem, ⟨2, _⟩ => ⟨S1x512x512, .f32⟩
  | .local _ .vmem, ⟨3, _⟩ => ⟨S1x512x1, .f32⟩
  | .local _ .vmem, ⟨4, _⟩ => ⟨S1x512x1, .f32⟩
  | .local _ .vmem, ⟨5, _⟩ => ⟨S1x2048x512, .f32⟩
  | .local _ .vmem, ⟨6, _⟩ => ⟨S1x2048x512, .f32⟩
  | .local _ .vmem, ⟨7, _⟩ => ⟨S512x512, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S512x512_S512x512_1_0 : S512x512.Transposes [1, 0] S512x512
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S8x512_S8x512x1_0_1 : S8x512.BroadcastsInDim S8x512x1 (![0, 1] : Fin 2 → Fin S8x512x1.rank)
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  broadcasts_S512x1_S512x512 : S512x1.Broadcasts S512x512
  reduces_S512x512_S512 : S512x512.Reduces [0] S512
  shapeCasts_S512_S1x512 : S512.ShapeCasts S1x512
  broadcasts_S1x512_S512x512 : S1x512.Broadcasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  dot_S8x512_S512x512_S8x512_1_0_0_1_n_n_wf : DotDims.WF S8x512 S512x512 S8x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x4096x512.size a
  hwx0_0 : ∀ i : grid0.Coords, EltTy.bits .f32 = 32 ∨ (Rect.block (s := S8x4096x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S1x512x512.size a
  hwx0_1 : ∀ i : grid0.Coords, EltTy.bits .f32 = 32 ∨ (Rect.block (s := S1x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x512x1.size a
  hwx0_2 : ∀ i : grid0.Coords, EltTy.bits .f32 = 32 ∨ (Rect.block (s := S8x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S8x4096x512.size a
  hwx0_3 : ∀ i : grid0.Coords, EltTy.bits .f32 = 32 ∨ (Rect.block (s := S8x4096x512) S1x2048x512.size (cc0_transform_3 i) (hinb0_3 i)).WholeWords (EltTy.packing .f32)

variable [Facts₀]

def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x512 : Shape := ⟨3, ![8, 4096, 512]⟩
abbrev S8x512 : Shape := ⟨2, ![8, 512]⟩
abbrev S1x512x512 : Shape := ⟨3, ![1, 512, 512]⟩
abbrev S512x512 : Shape := ⟨2, ![512, 512]⟩
abbrev S512 : Shape := ⟨1, ![512]⟩
abbrev S1x512 : Shape := ⟨2, ![1, 512]⟩
abbrev S8x512x1 : Shape := ⟨3, ![8, 512, 1]⟩
abbrev S_ : Shape := ⟨0, ![]⟩
abbrev S8x512x512 : Shape := ⟨3, ![8, 512, 512]⟩
abbrev S8x1x512 : Shape := ⟨3, ![8, 1, 512]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x512, .f32⟩
  | .hbm, ⟨2, _⟩ => ⟨S1x512x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S8x512, .f32⟩
  | .hbm, ⟨7, _⟩ => ⟨S1x512, .f32⟩
  | .hbm, ⟨8, _⟩ => ⟨S8x512, .f32⟩
  | .hbm, ⟨9, _⟩ => ⟨S8x512, .f32⟩
  | .hbm, ⟨10, _⟩ => ⟨S8x512x1, .f32⟩
  | .hbm, ⟨11, _⟩ => ⟨S_, .f32⟩
  | .hbm, ⟨12, _⟩ => ⟨S8x512x1, .f32⟩
  | .hbm, ⟨13, _⟩ => ⟨S8x512x1, .f32⟩
  | .hbm, ⟨14, _⟩ => ⟨S8x512x512, .f32⟩
  | .hbm, ⟨15, _⟩ => ⟨S8x512x512, .f32⟩
  | .hbm, ⟨16, _⟩ => ⟨S8x512x512, .f32⟩
  | .hbm, ⟨17, _⟩ => ⟨S8x512x512, .f32⟩
  | .hbm, ⟨18, _⟩ => ⟨S_, .f32⟩
  | .hbm, ⟨19, _⟩ => ⟨S8x512, .f32⟩
  | .hbm, ⟨20, _⟩ => ⟨S_, .f32⟩
  | .hbm, ⟨21, _⟩ => ⟨S8x512, .f32⟩
  | .hbm, ⟨22, _⟩ => ⟨S8x512, .f32⟩
  | .hbm, ⟨23, _⟩ => ⟨S8x512, .f32⟩
  | .hbm, ⟨24, _⟩ => ⟨S8x1x512, .f32⟩
  | .hbm, ⟨25, _⟩ => ⟨S8x512x512, .f32⟩
  | .hbm, ⟨26, _⟩ => ⟨S8x512x512, .f32⟩
  | .hbm, ⟨27, _⟩ => ⟨S8x4096x512, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S8x512_S8x512x1_0_1 : S8x512.BroadcastsInDim S8x512x1 (![0, 1] : Fin 2 → Fin S8x512x1.rank)
  bcast_S_S8x512x1 : S_.BroadcastsInDim S8x512x1 (![] : Fin 0 → Fin S8x512x1.rank)
  bcast_S1x512x512_S8x512x512_0_1_2 : S1x512x512.BroadcastsInDim S8x512x512 (![0, 1, 2] : Fin 3 → Fin S8x512x512.rank)
  bcast_S8x512x1_S8x512x512_0_1_2 : S8x512x1.BroadcastsInDim S8x512x512 (![0, 1, 2] : Fin 3 → Fin S8x512x512.rank)
  reducesTo_S8x512x512_S8x512_d1 : S8x512x512.ReducesTo [1] S8x512
  h_S_ : 0 < S_.numel
  bcast_S_S8x512 : S_.BroadcastsInDim S8x512 (![] : Fin 0 → Fin S8x512.rank)
  bcast_S8x512_S8x1x512_0_2 : S8x512.BroadcastsInDim S8x1x512 (![0, 2] : Fin 2 → Fin S8x1x512.rank)
  bcast_S8x1x512_S8x512x512_0_1_2 : S8x1x512.BroadcastsInDim S8x512x512 (![0, 1, 2] : Fin 3 → Fin S8x512x512.rank)
  dot_S8x512_S512x512_S8x512_1_0_0_1_n_n_wf : DotDims.WF S8x512 S512x512 S8x512 [1] [0] [0] [1] [] []
  dot_S8x4096x512_S8x512x512_S8x4096x512_2_1_1_2_0_0_wf : DotDims.WF S8x4096x512 S8x512x512 S8x4096x512 [2] [1] [1] [2] [0] [0]

variable [Facts₀]

def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf
def dot_S8x4096x512_S8x512x512_S8x4096x512_2_1_1_2_0_0 : DotDims S8x4096x512 S8x512x512 S8x4096x512 where
  lhsContracting := [2]
  rhsContracting := [1]
  lhsNonContracting := [1]
  rhsNonContracting := [2]
  lhsBatch := [0]
  rhsBatch := [0]
  wf := dot_S8x4096x512_S8x512x512_S8x4096x512_2_1_1_2_0_0_wf

class Facts : Prop extends Facts₀ where

variable [Facts]
-- ==== Proof.Pieces.lean ====
/-
  What one run of the kernel body leaves behind, as values.

  The body has two cases. At the first row tile of a sample it computes the sample's demodulated weight from the
  weight block and the style block, stores it whole in the carried buffer, and then multiplies the activation tile by
  what it has just stored. At a later row tile of the same sample it only multiplies the activation tile by what the
  carried buffer already holds. So, with `pay1` the weight computation and `pay2` the product:
  * first tile: the carried buffer ends at `pay1 style weight`, the output block at `pay2 x (pay1 style weight)`;
  * later tile: the carried buffer is unchanged, the output block ends at `pay2 x carried`.
  Each store covers its whole buffer from offset zero, and each load reads a whole buffer, so reading the stores back
  gives the stored values themselves.
-/
import proofs.«145217_j249108103688_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- First tile of a sample: the carried buffer ends holding the demodulated weight computed from the two blocks. -/
theorem scratch_A (c : Dev nD) (i : grid0.Coords) (arg2 : Memref sig .tc .vmem S1x2048x512 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S1x2048x512 .f32) (harg5 : arg5.IsWhole) (arg6 : Memref sig .tc .vmem S512x512 .bf16) (harg6 : arg6.IsWhole) (hc0 : cond0_0 i)
    (x0 : Vec F S1x2048x512 .f32) (x1 : Vec F S1x512x512 .f32) (x2 : Vec F S1x512x1 .f32) :
    sout0_A_0 c i arg2 harg2 arg3 harg3 arg4 harg4 arg5 harg5 arg6 harg6 hc0 x0 x1 x2 = k0_pay1 x2 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz2]
  simp only [View.readAt_eq_ld, harg3.read_unread, harg4.read_unread, View.ld_unit_zero (S := S1x512x512) hz3,
    View.ld_unit_zero (S := S1x512x1) hz3]

/-- First tile of a sample: the output block is the activation tile against the weight just stored (the load of the
    carried buffer reads back the store that covers it). -/
theorem out_A (c : Dev nD) (i : grid0.Coords) (arg2 : Memref sig .tc .vmem S1x2048x512 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S1x2048x512 .f32) (harg5 : arg5.IsWhole) (arg6 : Memref sig .tc .vmem S512x512 .bf16) (harg6 : arg6.IsWhole) (hc0 : cond0_0 i)
    (x0 : Vec F S1x2048x512 .f32) (x1 : Vec F S1x512x512 .f32) (x2 : Vec F S1x512x1 .f32) :
    out0_A_3 c i arg2 harg2 arg3 harg3 arg4 harg4 arg5 harg5 arg6 harg6 hc0 x0 x1 x2 = k0_pay2 x0 (k0_pay1 x2 x1) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz3, View.readCov_unit_zero (S := S512x512) _ hz2]
  simp only [View.readAt_eq_ld, harg2.read_unread, harg3.read_unread, harg4.read_unread,
    View.ld_unit_zero (S := S1x2048x512) hz3, View.ld_unit_zero (S := S1x512x512) hz3, View.ld_unit_zero (S := S1x512x1) hz3]

/-- Later tile of a sample: the output block is the activation tile against what the carried buffer held. -/
theorem out_B (c : Dev nD) (i : grid0.Coords) (arg2 : Memref sig .tc .vmem S1x2048x512 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S1x2048x512 .f32) (harg5 : arg5.IsWhole) (arg6 : Memref sig .tc .vmem S512x512 .bf16) (harg6 : arg6.IsWhole) (hc0 : ¬cond0_0 i)
    (x0 : Vec F S1x2048x512 .f32) (x1 : Vec F S1x512x512 .f32) (x2 : Vec F S1x512x1 .f32) (xs0 : Vec F S512x512 .bf16) :
    out0_B_3 c i arg2 harg2 arg3 harg3 arg4 harg4 arg5 harg5 arg6 harg6 hc0 x0 x1 x2 xs0 = k0_pay2 x0 xs0 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero hz3]
  simp only [View.readAt_eq_ld, harg2.read_unread, harg6.read_unread, View.ld_unit_zero (S := S1x2048x512) hz3,
    View.ld_unit_zero (S := S512x512) hz2]

end Cert.KernelIdeal.Pieces

end
-- ==== Proof.Blocks.lean ====
/-
  Where each window's block sits in its array.

  The grid has sixteen points, `t = 2·b + j` for sample `b < 8` and row tile `j < 2`. At point `t`
  * the activation block is rows `2048·j … 2048·j + 2047` of sample `b`: its entry `(0, n, i)` is the array's
    entry `(b, 2048·j + n, i)`;
  * the weight block is the whole `[1, 512, 512]` array at every point;
  * the style block is sample `b`'s column: its entry `(0, i, 0)` is the column array's entry `(b, i, 0)`;
  * the output block sits where the activation block does.
  A block's coordinate on an axis is always block index × block size + the coordinate inside the block; the block
  indices as functions of `t` are decided once over the sixteen points.
-/
import proofs.«145217_j249108103688_2_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ)

/-- The block indices of the four windows at point `t`: sample `t / 2`, row tile `t % 2`. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = t.val % 2 ∧ win0_3.index t (2 : Fin 3) = 0 :=
  (by decide +kernel : ∀ t : Fin grid0.N, _)

/-- The activation block at point `t`, entry by entry. -/
theorem iblk0_apply (c : Dev nD) (t : Fin cfg0.N) (u : Fin 1) (n : Fin 2048) (i : Fin 512) :
    (iblk m c 0 t : S1x2048x512.Idx → Elt F .f32) (ix3 u n i)
      = V m c main_arg0 (ix3 (⟨t.val / 2, by have := t.isLt; have : cfg0.N = 16 := N_0; omega⟩ : Fin 8)
          (⟨2048 * (t.val % 2) + n.val, by have := n.isLt; omega⟩ : Fin 4096) i) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * u.val = t.val / 2; have := u.isLt; omega
  | ⟨1, _⟩ => show win0_0.index t (1 : Fin 3) * 2048 + 1 * n.val = 2048 * (t.val % 2) + n.val; omega
  | ⟨2, _⟩ => show win0_0.index t (2 : Fin 3) * 512 + 1 * i.val = i.val; omega

/-- The weight block at any point is the weight array. -/
theorem iblk1_apply (c : Dev nD) (t : Fin cfg0.N) (u : Fin 1) (i o : Fin 512) :
    (iblk m c 1 t : S1x512x512.Idx → Elt F .f32) (ix3 u i o) = V m c main_arg2 (ix3 (0 : Fin 1) i o) := by
  obtain ⟨-, -, -, e0, e1, e2, -⟩ := idx_facts t
  unfold iblk
  rw [View.read_apply]
  show V m c main_arg2 _ = V m c main_arg2 _
  congr 1
  funext a
  apply Fin.ext
  match a with
  | ⟨0, _⟩ => show win0_1.index t (0 : Fin 3) * 1 + 1 * u.val = 0; have := u.isLt; omega
  | ⟨1, _⟩ => show win0_1.index t (1 : Fin 3) * 512 + 1 * i.val = i.val; omega
  | ⟨2, _⟩ => show win0_1.index t (2 : Fin 3) * 512 + 1 * o.val = o.val; omega

/-- The style block at point `t` is the column of sample `t / 2`. -/
theorem iblk2_apply (c : Dev nD) (t : Fin cfg0.N) (u : Fin 1) (i : Fin 512) (z : Fin 1) :
    (iblk m c 2 t : S1x512x1.Idx → Elt F .f32) (ix3 u i z)
      = V m c main_v5 (ix3 (⟨t.val / 2, by have := t.isLt; have : cfg0.N = 16 := N_0; omega⟩ : Fin 8) i (0 : Fin 1)) := by
  obtain ⟨-, -, -, -, -, -, e0, e1, e2, -⟩ := idx_facts t
  unfold iblk
  rw [View.read_apply]
  show V m c main_v5 _ = V m c main_v5 _
  congr 1
  funext a
  apply Fin.ext
  match a with
  | ⟨0, _⟩ => show win0_2.index t (0 : Fin 3) * 1 + 1 * u.val = t.val / 2; have := u.isLt; omega
  | ⟨1, _⟩ => show win0_2.index t (1 : Fin 3) * 512 + 1 * i.val = i.val; omega
  | ⟨2, _⟩ => show win0_2.index t (2 : Fin 3) * 1 + 1 * z.val = 0; have := z.isLt; omega

end Cert.KernelIdeal.Blocks
end
-- ==== Proof.Spec.lean ====
/-
  The function both programs compute, index by index, over the extended reals.

  From the activations `x : [8, 4096, 512]`, the base weight `W : [1, 512, 512]` and the per-sample style column
  `s : [8, 512, 1]`:
  * the modulated weight of sample `b` is `wm b i o = W (0, i, o) · (s (b, i, 0) + 1)`;
  * its demodulation factor for output channel `o` is `dm b o = (∑ k, wm b k o · wm b k o + ε)^(-1/2)`, the inverse
    root of the squared norm of column `o` over the input channels, shifted by `ε`;
  * the demodulated weight is `wd b i o = wm b i o · dm b o`;
  * the result at `(b, n, o)` is `∑ i, x (b, n, i) · wd b i o`, row `n` of sample `b` against column `o` of that
    sample's demodulated weight.
  The two float literals (`1.0` and the f32 nearest `1e-8`) stay bit patterns: both programs spell the same words,
  so their values are never needed.
-/
import Idealize.ShloMosaic.PureOps.Ideal
import Idealize.ShloMosaic.Lib.ValueIdx

noncomputable section

namespace Cert.Spec

open Idealize.ShloMosaic Idealize.ShloMosaic.ValueIdx
open scoped BigOperators

/-- The literal `1.0` added to the style column. -/
abbrev one : EReal := Ideal.ofBits .f32 0x3F800000#32
/-- The literal `ε` (the f32 nearest `1e-8`) added to the squared norm. -/
abbrev eps : EReal := Ideal.ofBits .f32 0x322BCC77#32

/-- The modulated weight of sample `b`: the base weight's entry `(i, o)` times one plus the sample's style entry `i`. -/
def wm (W : (⟨3, ![1, 512, 512]⟩ : Shape).Idx → EReal) (s : (⟨3, ![8, 512, 1]⟩ : Shape).Idx → EReal)
    (b : Fin 8) (i o : Fin 512) : EReal :=
  W (ix3 (0 : Fin 1) i o) * (s (ix3 b i (0 : Fin 1)) + one)

/-- The demodulation factor of sample `b` and output channel `o`: the inverse square root of the squared norm of
    column `o` of the modulated weight, shifted by `ε`. -/
def dm (W : (⟨3, ![1, 512, 512]⟩ : Shape).Idx → EReal) (s : (⟨3, ![8, 512, 1]⟩ : Shape).Idx → EReal)
    (b : Fin 8) (o : Fin 512) : EReal :=
  Ideal.rsqrt ((∑ k : Fin 512, wm W s b k o * wm W s b k o) + eps)

/-- The demodulated weight of sample `b`. -/
def wd (W : (⟨3, ![1, 512, 512]⟩ : Shape).Idx → EReal) (s : (⟨3, ![8, 512, 1]⟩ : Shape).Idx → EReal)
    (b : Fin 8) (i o : Fin 512) : EReal :=
  wm W s b i o * dm W s b o

/-- The demodulated weight of sample `b` as a `[512, 512]` array. -/
def wdArr (W : (⟨3, ![1, 512, 512]⟩ : Shape).Idx → EReal) (s : (⟨3, ![8, 512, 1]⟩ : Shape).Idx → EReal)
    (b : Fin 8) : (⟨2, ![512, 512]⟩ : Shape).Idx → EReal :=
  fun j => wd W s b (j 0) (j 1)

/-- The result: at `(b, n, o)`, row `n` of sample `b` against column `o` of that sample's demodulated weight. -/
def out (x : (⟨3, ![8, 4096, 512]⟩ : Shape).Idx → EReal) (W : (⟨3, ![1, 512, 512]⟩ : Shape).Idx → EReal)
    (s : (⟨3, ![8, 512, 1]⟩ : Shape).Idx → EReal) : (⟨3, ![8, 4096, 512]⟩ : Shape).Idx → EReal :=
  fun j => ∑ i : Fin 512, x (ix3 (j 0) (j 1) i) * wd W s (j 0) i (j 2)

theorem out_apply (x : (⟨3, ![8, 4096, 512]⟩ : Shape).Idx → EReal) (W : (⟨3, ![1, 512, 512]⟩ : Shape).Idx → EReal)
    (s : (⟨3, ![8, 512, 1]⟩ : Shape).Idx → EReal) (b : Fin 8) (n : Fin 4096) (o : Fin 512) :
    out x W s (ix3 b n o) = ∑ i : Fin 512, x (ix3 b n i) * wd W s b i o := rfl

theorem wdArr_apply (W : (⟨3, ![1, 512, 512]⟩ : Shape).Idx → EReal) (s : (⟨3, ![8, 512, 1]⟩ : Shape).Idx → EReal)
    (b : Fin 8) (i o : Fin 512) : wdArr W s b (ix2 i o) = wd W s b i o := rfl

end Cert.Spec

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.Body.lean ====
/-
  The two values the kernel body stores, read at an index over the extended reals.

  The first is the demodulated weight. From the style block `s : [1, 512, 1]` and the weight block
  `W : [1, 512, 512]`, both without their unit axis:
  * the modulated weight is `w (i, o) = W (0, i, o) · (s (0, i, 0) + 1)`: one is added to the style column, the column
    is repeated along the rows and multiplies the weight entry by entry;
  * the squared norm of column `o` is `∑ k, w (k, o) · w (k, o)`, the sum over the first axis of the entrywise square,
    from the zero accumulator;
  * re-laid as a `[1, 512]` row, shifted by `ε` and sent through the inverse square root entry by entry, it is the
    demodulation row `d o = (∑ k, w (k, o) · w (k, o) + ε)^(-1/2)`;
  * that row is repeated down the columns and multiplies `w`: the stored value at `(i, o)` is `w (i, o) · d o`. The
    narrowing to the 16-bit format is the identity on extended reals, and the last re-laying is to the same shape.

  The second is the product of the activations' block `x : [1, 2048, 512]`, without its unit axis (and narrowed: the
  identity), with a `[512, 512]` operand `y`, into the zero accumulator, with the unit axis put back: at `(u, n, o)`
  it is `∑ i, x (0, n, i) · y (i, o)`.
-/
import proofs.«145217_j249108103688_2_alg».proof.Proof.Gen.KernelIdeal.Skeleton
import proofs.«145217_j249108103688_2_alg».proof.Proof.Spec
import proofs.«145217_j249108103688_2_alg».proof.Proof.LibPlainMatmul
import proofs.«145217_j249108103688_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx
open Cert.KernelIdeal Cert.KernelIdeal.Gen
open scoped BigOperators

/-! ## A sum down the columns of a matrix, read at an index -/

/-- At the exact instance, the sum of an `[a, b]` block over its first axis, from the neutral accumulator, is at `q`
    the sum of the `a` entries of column `q`. -/
theorem multiReduction_add_col {a b : ℕ} {φ : FTy} (src : FVec Ideal ⟨2, ![a, b]⟩ φ) (acc : BitVec φ.bits)
    (h : Shape.Reduces ⟨2, ![a, b]⟩ [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

variable [Facts]

/-! ## The demodulated weight -/

/-- The modulated weight as the body builds it: the weight block without its unit axis, times the style column plus
    one repeated along the rows. -/
def wmod (v11 : Vec Ideal S1x512x1 .f32) (v13 : Vec Ideal S1x512x512 .f32) : FVec Ideal S512x512 .f32 :=
  mulf (shapeCast S512x512 v13 shapeCasts_S1x512x512_S512x512)
    (broadcastTo S512x512
      (addf (shapeCast S512x1 v11 shapeCasts_S1x512x1_S512x1) (broadcast S512x1 (Scalar.ofBits .f32 0x3F800000#32)))
      broadcasts_S512x1_S512x512)

/-- The modulated weight at `(i, o)`: the weight entry times one plus the style entry of row `i`. -/
theorem wmod_apply (v11 : Vec Ideal S1x512x1 .f32) (v13 : Vec Ideal S1x512x512 .f32) (i o : Fin 512) :
    wmod v11 v13 (ix2 i o)
      = v13 (ix3 (0 : Fin 1) i o) * (v11 (ix3 (0 : Fin 1) i (0 : Fin 1)) + Cert.Spec.one) := by
  unfold wmod
  rw [mulf_apply, shapeCast_1ab_ab_apply, Cert.LibKeepdims.broadcastTo_a1_ab_apply, addf_apply,
    shapeCast_1ab_ab_apply, broadcast_apply]
  rfl

/-- The squared norms of the modulated weight's columns: the entrywise square summed over the first axis. -/
def sqnorm (v11 : Vec Ideal S1x512x1 .f32) (v13 : Vec Ideal S1x512x512 .f32) : FVec Ideal S512 .f32 :=
  multiReduction .add [0] S512 (mulf (wmod v11 v13) (wmod v11 v13)) 0x00000000#32 reduces_S512x512_S512 (.inl rfl) rfl

/-- The squared norm of column `o`. -/
theorem sqnorm_apply (v11 : Vec Ideal S1x512x1 .f32) (v13 : Vec Ideal S1x512x512 .f32) (o : Fin 512) :
    sqnorm v11 v13 (ix1 o) = ∑ k : Fin 512, wmod v11 v13 (ix2 k o) * wmod v11 v13 (ix2 k o) :=
  multiReduction_add_col _ _ _ _ _ o

/-- The demodulation row: the squared norms as a `[1, 512]` row, shifted by `ε`, through the inverse square root. -/
def demod (v11 : Vec Ideal S1x512x1 .f32) (v13 : Vec Ideal S1x512x512 .f32) : FVec Ideal S1x512 .f32 :=
  rsqrt (addf (shapeCast S1x512 (sqnorm v11 v13) shapeCasts_S512_S1x512)
    (broadcast S1x512 (Scalar.ofBits .f32 0x322BCC77#32)))

/-- The demodulation factor of column `o`. -/
theorem demod_apply (v11 : Vec Ideal S1x512x1 .f32) (v13 : Vec Ideal S1x512x512 .f32) (u : Fin 1) (o : Fin 512) :
    demod v11 v13 (ix2 u o)
      = Ideal.rsqrt ((∑ k : Fin 512, wmod v11 v13 (ix2 k o) * wmod v11 v13 (ix2 k o)) + Cert.Spec.eps) := by
  show Ideal.rsqrt (shapeCast S1x512 (sqnorm v11 v13) shapeCasts_S512_S1x512 (ix2 u o) + Cert.Spec.eps) = _
  rw [shapeCast_a_1a_apply, sqnorm_apply]

/-- The stored value is the modulated weight times the demodulation row repeated down the columns, narrowed and
    re-laid to its own shape: the body's operations in their order. -/
theorem pay1_eq (v11 : Vec Ideal S1x512x1 .f32) (v13 : Vec Ideal S1x512x512 .f32) :
    k0_pay1 (F := Ideal) v11 v13
      = shapeCast S512x512
          (truncf .bf16 (mulf (wmod v11 v13) (broadcastTo S512x512 (demod v11 v13) broadcasts_S1x512_S512x512))
            bitsLt_bf16_f32)
          shapeCasts_S512x512_S512x512 := rfl

/-- THE DEMODULATED WEIGHT at `(i, o)`. -/
theorem pay1_apply (v11 : Vec Ideal S1x512x1 .f32) (v13 : Vec Ideal S1x512x512 .f32) (i o : Fin 512) :
    k0_pay1 (F := Ideal) v11 v13 (ix2 i o)
      = (v13 (ix3 (0 : Fin 1) i o) * (v11 (ix3 (0 : Fin 1) i (0 : Fin 1)) + Cert.Spec.one))
        * Ideal.rsqrt ((∑ k : Fin 512, (v13 (ix3 (0 : Fin 1) k o) * (v11 (ix3 (0 : Fin 1) k (0 : Fin 1)) + Cert.Spec.one))
                                    * (v13 (ix3 (0 : Fin 1) k o) * (v11 (ix3 (0 : Fin 1) k (0 : Fin 1)) + Cert.Spec.one))) + Cert.Spec.eps) := by
  rw [pay1_eq, shapeCast_self, truncf_apply, mulf_apply, broadcastTo_1b_ab_apply, demod_apply, wmod_apply]
  simp only [wmod_apply]

/-! ## The product -/

/-- THE PRODUCT at `(u, n, o)`: row `n` of the activations' block against column `o` of the operand. -/
theorem pay2_apply (v3 : Vec Ideal S1x2048x512 .f32) (v6 : Vec Ideal S512x512 .bf16) (u : Fin 1) (n : Fin 2048) (o : Fin 512) :
    k0_pay2 (F := Ideal) v3 v6 (ix3 u n o) = ∑ i : Fin 512, v3 (ix3 (0 : Fin 1) n i) * v6 (ix2 i o) := by
  unfold k0_pay2
  refine (shapeCast_ab_1ab_apply _ _ u n o).trans ?_
  refine (Cert.LibPlainMatmul.matmul_zero_plain (φ₁ := .bf16) (φ₂ := .bf16) _ _ _ n o).trans ?_
  refine Finset.sum_congr rfl fun c _ => ?_
  exact congrArg (· * v6 (ix2 c o)) (shapeCast_1ab_ab_apply v3 _ n c)

end Cert.KernelIdeal.Body

end
-- ==== Proof.Flush.lean ====
/-
  The kernel's result array, as one function of the arrays the region finds.

  One run of the body multiplies an activation tile by a `[512, 512]` operand; the operand is the demodulated weight
  of the tile's sample, computed from the weight array and the sample's style column — freshly at the sample's first
  row tile, and read from the carried buffer at the second. The carried buffer is never stale: after every point it
  holds the demodulated weight of that point's sample, because a second tile leaves it as the first tile of the same
  sample left it, and both tiles of a sample see the same style column and the same weight array. Hence every point
  writes back its own rows of the specification, and the sixteen blocks — two row tiles for each of eight samples —
  cover the `[8, 4096, 512]` result exactly.
-/
import proofs.«145217_j249108103688_2_alg».proof.Proof.Gen.KernelIdeal.Value
import proofs.«145217_j249108103688_2_alg».proof.Proof.Pieces
import proofs.«145217_j249108103688_2_alg».proof.Proof.Blocks
import proofs.«145217_j249108103688_2_alg».proof.Proof.Spec
import proofs.«145217_j249108103688_2_alg».proof.Proof.Body
import Idealize.ShloMosaic.Lib.Pipeline.Value
import Idealize.ShloMosaic.Lib.ValueIdx

noncomputable section

namespace Cert.KernelIdeal.Flush

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-! ## The body's two computations, over blocks that are known restrictions of arrays -/

/-- The weight computation on a weight block that is the weight array and a style block that is sample `b`'s
    column gives sample `b`'s demodulated weight. -/
theorem weight_value (W : (⟨3, ![1, 512, 512]⟩ : Shape).Idx → EReal) (s : (⟨3, ![8, 512, 1]⟩ : Shape).Idx → EReal)
    (X1 : Vec Ideal S1x512x512 .f32) (X2 : Vec Ideal S1x512x1 .f32) (b : Fin 8)
    (h1 : ∀ i o : Fin 512, X1 (ix3 (0 : Fin 1) i o) = W (ix3 (0 : Fin 1) i o))
    (h2 : ∀ i : Fin 512, X2 (ix3 (0 : Fin 1) i (0 : Fin 1)) = s (ix3 b i (0 : Fin 1))) (i o : Fin 512) :
    k0_pay1 (F := Ideal) X2 X1 (ix2 i o) = Cert.Spec.wd W s b i o := by
  rw [Cert.KernelIdeal.Body.pay1_apply]
  unfold Cert.Spec.wd Cert.Spec.dm Cert.Spec.wm
  simp only [h1, h2]

/-- The product of an activation block that is rows `2048·j + n` of sample `b` with a `[512, 512]` operand that is
    sample `b`'s demodulated weight gives those rows of the result. -/
theorem product_value (x : (⟨3, ![8, 4096, 512]⟩ : Shape).Idx → EReal) (W : (⟨3, ![1, 512, 512]⟩ : Shape).Idx → EReal)
    (s : (⟨3, ![8, 512, 1]⟩ : Shape).Idx → EReal) (X0 : Vec Ideal S1x2048x512 .f32) (Q : Vec Ideal S512x512 .bf16)
    (b : Fin 8) (r : Fin 2048 → Fin 4096)
    (h0 : ∀ (n : Fin 2048) (i : Fin 512), X0 (ix3 (0 : Fin 1) n i) = x (ix3 b (r n) i))
    (hQ : ∀ i o : Fin 512, Q (ix2 i o) = Cert.Spec.wd W s b i o) (u : Fin 1) (n : Fin 2048) (o : Fin 512) :
    k0_pay2 (F := Ideal) X0 Q (ix3 u n o) = Cert.Spec.out x W s (ix3 b (r n) o) := by
  rw [Cert.KernelIdeal.Body.pay2_apply, Cert.Spec.out_apply]
  exact Finset.sum_congr rfl fun i _ => by rw [h0, hQ]

variable (m : (ℓ : Loc nD τ sig) → Buf (Elt Ideal) ℓ) (ρ : Dev nD → PrngReg)

/-- The sample a point belongs to. -/
abbrev bat (t : Fin cfg0.N) : Fin 8 := ⟨t.val / 2, by have := t.isLt; have : cfg0.N = 16 := N_0; omega⟩
/-- The array row of row `n` of the point's tile. -/
abbrev row (t : Fin cfg0.N) (n : Fin 2048) : Fin 4096 := ⟨2048 * (t.val % 2) + n.val, by have := n.isLt; omega⟩

/-! ## The carried buffer after every point -/

/-- After the first tile of a sample the carried buffer holds that sample's demodulated weight. -/
theorem carried_first (c : Dev nD) (t : Fin cfg0.N) (h0 : t.val % 2 = 0) (i o : Fin 512) :
    ((outsAt0 m c t.val t.isLt).2 : S512x512.Idx → EReal) (ix2 i o)
      = Cert.Spec.wd (V m c main_arg2) (V m c main_v5) (bat t) i o := by
  rw [outsAt0_A m c t h0]
  dsimp only
  rw [Cert.KernelIdeal.Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)]
  exact weight_value (V m c main_arg2) (V m c main_v5) (iblk m c 1 t) (iblk m c 2 t) (bat t)
    (fun i o => Cert.KernelIdeal.Blocks.iblk1_apply m c t 0 i o) (fun i => Cert.KernelIdeal.Blocks.iblk2_apply m c t 0 i 0) i o

/-- After every point the carried buffer holds the demodulated weight of the point's sample: a later tile leaves
    it as the first tile of the same sample left it. -/
theorem carried (c : Dev nD) (t : Fin cfg0.N) (i o : Fin 512) :
    ((outsAt0 m c t.val t.isLt).2 : S512x512.Idx → EReal) (ix2 i o)
      = Cert.Spec.wd (V m c main_arg2) (V m c main_v5) (bat t) i o := by
  by_cases h0 : t.val % 2 = 0
  · exact carried_first m c t h0 i o
  · rw [outsAt0_B m c t h0]
    dsimp only
    unfold sout0_B_0
    have hlt : t.val - 1 < cfg0.N := Nat.lt_of_le_of_lt (Nat.sub_le _ _) t.isLt
    have he : (⟨t.val - 1, hlt⟩ : Fin cfg0.N).val % 2 = 0 := by dsimp only; omega
    have hb : bat ⟨t.val - 1, hlt⟩ = bat t := Fin.ext (by dsimp only; omega)
    rw [← hb]
    exact carried_first m c ⟨t.val - 1, hlt⟩ he i o

/-! ## What each point writes back -/

/-- What point `t` writes back, entry by entry: rows `2048·(t % 2) + n` of sample `t / 2` of the result. -/
theorem flushed_apply (c : Dev nD) (t : Fin cfg0.N) (u : Fin 1) (n : Fin 2048) (o : Fin 512) :
    ((dats m 0 c).flushed 3 t : S1x2048x512.Idx → EReal) (ix3 u n o)
      = Cert.Spec.out (V m c main_arg0) (V m c main_arg2) (V m c main_v5) (ix3 (bat t) (row t n) o) := by
  by_cases h0 : t.val % 2 = 0
  · rw [Cert.KernelIdeal.Value.flushed3_A m c t h0]
    show out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t) (ix3 u n o) = _
    rw [Cert.KernelIdeal.Pieces.out_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)]
    exact product_value (V m c main_arg0) (V m c main_arg2) (V m c main_v5) (iblk m c 0 t) (k0_pay1 (F := Ideal) (iblk m c 2 t) (iblk m c 1 t)) (bat t) (row t)
      (fun n i => Cert.KernelIdeal.Blocks.iblk0_apply m c t 0 n i)
      (fun i o => weight_value (V m c main_arg2) (V m c main_v5) (iblk m c 1 t) (iblk m c 2 t) (bat t)
        (fun i o => Cert.KernelIdeal.Blocks.iblk1_apply m c t 0 i o) (fun i => Cert.KernelIdeal.Blocks.iblk2_apply m c t 0 i 0) i o) u n o
  · rw [Cert.KernelIdeal.Value.flushed3_B m c t h0]
    show out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2 (ix3 u n o) = _
    rw [Cert.KernelIdeal.Pieces.out_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2]
    have hlt : t.val - 1 < cfg0.N := Nat.lt_of_le_of_lt (Nat.sub_le _ _) t.isLt
    have hb : bat ⟨t.val - 1, hlt⟩ = bat t := Fin.ext (by dsimp only; omega)
    exact product_value (V m c main_arg0) (V m c main_arg2) (V m c main_v5) (iblk m c 0 t) (outsAt0 m c (t.val - 1) hlt).2 (bat t) (row t)
      (fun n i => Cert.KernelIdeal.Blocks.iblk0_apply m c t 0 n i)
      (fun i o => hb ▸ carried m c ⟨t.val - 1, hlt⟩ i o) u n o

/-- What point `t` writes back is block `t` of the specification applied to the arrays as the region finds them. -/
theorem flushed_eq (c : Dev nD) (t : Fin cfg0.N) :
    (dats m 0 c).flushed 3 t
      = ((cfg0.win 3).blk t).view.read (Elt Ideal) (Cert.Spec.out (V m c main_arg0) (V m c main_arg2) (V m c main_v5)) := by
  obtain ⟨-, -, -, -, -, -, -, -, -, e0, e1, e2⟩ := Cert.KernelIdeal.Blocks.idx_facts t
  refine funext fun (j : S1x2048x512.Idx) => ?_
  obtain ⟨u, n, o, rfl⟩ : ∃ (u : Fin 1) (n : Fin 2048) (o : Fin 512), j = ix3 u n o := ⟨j 0, j 1, j 2, eq_ix3 j⟩
  rw [View.read_apply]
  refine (flushed_apply m c t u n o).trans ?_
  refine congrArg (Cert.Spec.out (V m c main_arg0) (V m c main_arg2) (V m c main_v5)) (funext fun a => Fin.ext ?_)
  match a with
  | ⟨0, _⟩ => show t.val / 2 = win0_3.index t (0 : Fin 3) * 1 + 1 * u.val; have := u.isLt; omega
  | ⟨1, _⟩ => show 2048 * (t.val % 2) + n.val = win0_3.index t (1 : Fin 3) * 2048 + 1 * n.val; omega
  | ⟨2, _⟩ => show o.val = win0_3.index t (2 : Fin 3) * 512 + 1 * o.val; omega

/-! ## The sixteen blocks cover the result array -/

/-- An index of the array is in point `t`'s block iff each coordinate is in the block's range on its axis. -/
theorem mem_blk (t : Fin cfg0.N) (i : S8x4096x512.Idx) :
    i ∈ ((cfg0.win 3).blk t).view.set ↔ ∀ a : Fin 3, win0_3.index t a * S1x2048x512.size a ≤ (i a).val
      ∧ (i a).val < win0_3.index t a * S1x2048x512.size a + S1x2048x512.size a := by
  show i ∈ ((View.whole main_v6).slice (win0_3.rect t)).set ↔ _
  rw [View.set_slice_whole, Rect.mem_set_unit]
  exact Iff.rfl

/-- Entry `(b, r, o)` lies in the block of point `2·b + r / 2048`. -/
theorem cover (i : S8x4096x512.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 512 := (i 2).isLt
  have hN : cfg0.N = 16 := N_0
  let t : Fin cfg0.N := ⟨2 * (i 0).val + (i 1).val / 2048, by rw [hN]; omega⟩
  have ht : t.val = 2 * (i 0).val + (i 1).val / 2048 := rfl
  obtain ⟨-, -, -, -, -, -, -, -, -, e0, e1, e2⟩ := Cert.KernelIdeal.Blocks.idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 512 ≤ (i 2).val ∧ (i 2).val < win0_3.index t (2 : Fin 3) * 512 + 512; omega

/-- So after the run the result array is the specification applied to the arrays as the region finds them. -/
theorem final (c : Dev nD) :
    (dats m 0 c).arrAt 3 cfg0.N = Cert.Spec.out (V m c main_arg0) (V m c main_arg2) (V m c main_v5) :=
  (dats m 0 c).arrAt_eq_of_cover 3 (Cert.Spec.out (V m c main_arg0) (V m c main_arg2) (V m c main_v5))
    (fun t _ => flushed_eq m c t) cover

end Cert.KernelIdeal.Flush

end
-- ==== Proof.StyleCol.lean ====
/-
  The style column the kernel's region finds is the one the reference computes.

  Before the region the kernel's program runs six host operations: the modulation matrix transposed, the style
  vectors times it (one sum over the style dimension per sample and input channel), the bias repeated over the
  samples and added, and the `[8, 512]` result re-laid as an `[8, 512, 1]` column. The reference begins with the same
  six operations on the same arguments, so the column is the same term.
-/
import proofs.«145217_j249108103688_2_alg».proof.Proof.Gen.KernelIdeal.Frame
import proofs.«145217_j249108103688_2_alg».proof.Proof.Gen.ReferenceIdeal.Read
import Idealize.ShloMosaic.Lib.StableHlo.Run

noncomputable section

namespace Cert.KernelIdeal.StyleCol

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The column array as the region finds it is the reference's column stage of the style vectors, the modulation
    matrix and the bias. -/
theorem style_col (c : Dev nD) :
    (V m c main_v5 : S8x512x1.Idx → EReal)
      = Cert.ReferenceIdeal.Read.val_main_v5 (F := Ideal) (m ((c : Thread nD τ).loc main_arg1))
          (m ((c : Thread nD τ).loc main_arg3)) (m ((c : Thread nD τ).loc main_arg4)) := by
  dsimp only [Gen.V, Gen.hostOps0]
  after_results
  rfl

end Cert.KernelIdeal.StyleCol

end
-- ==== Proof.Ref.lean ====
/-
  The reference program, read index by index over the extended reals, is the specification.

  Stage by stage, from the activations `x : [8, 4096, 512]`, the base weight `W : [1, 512, 512]` and the style
  column `s : [8, 512, 1]` that the program computes first (left as it stands here):
  * `s + 1.0`, the literal repeated over `[8, 512, 1]`, then repeated along the output channels to `[8, 512, 512]`,
    times `W` repeated over the eight samples, is the modulated weight: at `(b, i, o)` it is
    `W (0, i, o) · (s (b, i, 0) + 1)`;
  * its square summed over the input channels (axis 1) from the zero literal, plus the literal `ε`, under the
    inverse square root, is the demodulation factor: at `(b, o)` it is `(∑ k, wm b k o · wm b k o + ε)^(-1/2)`;
    the leading zero of the sum is the real `0` and drops;
  * that `[8, 512]` array re-laid as `[8, 1, 512]` and repeated along the input channels, times the modulated
    weight, is the demodulated weight: at `(b, i, o)` it is `wm b i o · dm b o`;
  * the batched product of `x` with it, contracting the input channels, is at `(b, n, o)` the sum
    `∑ i, x (b, n, i) · wd b i o`.
  Each layout step reads its operand at an index given by a match on the axis; the small equations below name those
  indices by their coordinates.
-/
import proofs.«145217_j249108103688_2_alg».proof.Proof.Gen.ReferenceIdeal.Read
import proofs.«145217_j249108103688_2_alg».proof.Proof.Spec

noncomputable section

namespace Cert.RefValue

open Idealize.ShloMosaic Idealize.ShloMosaic.ValueIdx Cert.ReferenceIdeal Cert.ReferenceIdeal.Read
open scoped BigOperators

/-! ### The layout steps' source indices, by coordinates -/

/-- The base weight repeated over the samples reads, at `(b, i, o)`, the weight at `(0, i, o)`. -/
theorem idx8 (b : Fin 8) (i o : Fin 512) : idx_main_v8 (ix3 b i o) = ix3 (0 : Fin 1) i o :=
  funext fun a => Fin.ext (by match a with | ⟨0, _⟩ => rfl | ⟨1, _⟩ => rfl | ⟨2, _⟩ => rfl)

/-- The column repeated along the output channels reads, at `(b, i, o)`, the column at `(b, i, 0)`. -/
theorem idx9 (b : Fin 8) (i o : Fin 512) : idx_main_v9 (ix3 b i o) = ix3 b i (0 : Fin 1) :=
  funext fun a => Fin.ext (by match a with | ⟨0, _⟩ => rfl | ⟨1, _⟩ => rfl | ⟨2, _⟩ => rfl)

/-- The sum over the input channels at `(b, o)` runs over the entries `(b, k, o)`. -/
theorem idx12 (b : Fin 8) (o k : Fin 512) : idx_main_v12 (ix2 b o) k = ix3 b k o :=
  funext fun a => Fin.ext (by match a with | ⟨0, _⟩ => rfl | ⟨1, _⟩ => rfl | ⟨2, _⟩ => rfl)

/-- The `[8, 512]` array re-laid as `[8, 1, 512]` reads, at `(b, 0, o)`, the array at `(b, o)`. -/
theorem idx16 (b : Fin 8) (u : Fin 1) (o : Fin 512) : idx_main_v16 (ix3 b u o) = ix2 b o :=
  funext fun a => Fin.ext (by match a with | ⟨0, _⟩ => rfl | ⟨1, _⟩ => rfl)

/-- The `[8, 1, 512]` array repeated along the input channels reads, at `(b, i, o)`, the array at `(b, 0, o)`. -/
theorem idx17 (b : Fin 8) (i o : Fin 512) : idx_main_v17 (ix3 b i o) = ix3 b (0 : Fin 1) o :=
  funext fun a => Fin.ext (by match a with | ⟨0, _⟩ => rfl | ⟨1, _⟩ => rfl | ⟨2, _⟩ => rfl)

/-- The batched product at `(b, n, o)` reads the activations at `(b, n, k)`. -/
theorem lidx19 (b : Fin 8) (n : Fin 4096) (o k : Fin 512) : lidx_main_v19 (ix3 b n o) k = ix3 b n k :=
  funext fun a => Fin.ext (by match a with | ⟨0, _⟩ => rfl | ⟨1, _⟩ => rfl | ⟨2, _⟩ => rfl)

/-- The batched product at `(b, n, o)` reads the weight at `(b, k, o)`. -/
theorem ridx19 (b : Fin 8) (n : Fin 4096) (o k : Fin 512) : ridx_main_v19 (ix3 b n o) k = ix3 b k o :=
  funext fun a => Fin.ext (by match a with | ⟨0, _⟩ => rfl | ⟨1, _⟩ => rfl | ⟨2, _⟩ => rfl)

/-! ### The stages -/

variable (x1 : (⟨S8x512, .f32⟩ : BufTy).Contents (Elt Ideal)) (x2 : (⟨S1x512x512, .f32⟩ : BufTy).Contents (Elt Ideal))
  (x3 : (⟨S512x512, .f32⟩ : BufTy).Contents (Elt Ideal)) (x4 : (⟨S512, .f32⟩ : BufTy).Contents (Elt Ideal))

/-- The product of the repeated base weight and the repeated `s + 1` is the modulated weight. -/
theorem v10_eq (b : Fin 8) (i o : Fin 512) :
    val_main_v10 (F := Ideal) x1 x2 x3 x4 (ix3 b i o) = Cert.Spec.wm x2 (val_main_v5 (F := Ideal) x1 x3 x4) b i o := by
  rw [val_main_v10_apply, val_main_v8_apply, val_main_v9_apply, val_main_v7_apply, val_main_v6_apply,
    val_main_cst_apply, idx8, idx9]
  rfl

/-- The inverse root of the summed squares plus `ε` is the demodulation factor. -/
theorem v15_eq (b : Fin 8) (o : Fin 512) :
    val_main_v15 (F := Ideal) x1 x2 x3 x4 (ix2 b o) = Cert.Spec.dm x2 (val_main_v5 (F := Ideal) x1 x3 x4) b o := by
  rw [val_main_v15_apply, val_main_v14_apply, val_main_v12_apply, val_main_v13_apply, val_main_cst_1_apply,
    val_main_cst_0_apply]
  simp only [Ideal.hostUnary_rsqrt_def, Ideal.addf_def, Ideal.ofBits_def, Ideal.ofBits_zero_f32, zero_add]
  unfold Cert.Spec.dm
  refine congrArg Ideal.rsqrt (congrArg (· + Cert.Spec.eps) (Finset.sum_congr rfl fun k _ => ?_))
  rw [val_main_v11_apply, idx12, v10_eq]
  rfl

/-- The modulated weight times the repeated demodulation factor is the demodulated weight. -/
theorem v18_eq (b : Fin 8) (i o : Fin 512) :
    val_main_v18 (F := Ideal) x1 x2 x3 x4 (ix3 b i o) = Cert.Spec.wd x2 (val_main_v5 (F := Ideal) x1 x3 x4) b i o := by
  rw [val_main_v18_apply, val_main_v17_apply, val_main_v16_apply, idx17, idx16, v10_eq, v15_eq]
  rfl

/-- The reference's result is the specification at the activations, the base weight and the style column the
    reference itself computes. -/
theorem ref_eq (x0 : (⟨Cert.ReferenceIdeal.S8x4096x512, .f32⟩ : BufTy).Contents (Elt Ideal)) (x1 : (⟨Cert.ReferenceIdeal.S8x512, .f32⟩ : BufTy).Contents (Elt Ideal)) (x2 : (⟨Cert.ReferenceIdeal.S1x512x512, .f32⟩ : BufTy).Contents (Elt Ideal)) (x3 : (⟨Cert.ReferenceIdeal.S512x512, .f32⟩ : BufTy).Contents (Elt Ideal)) (x4 : (⟨Cert.ReferenceIdeal.S512, .f32⟩ : BufTy).Contents (Elt Ideal)) :
    Cert.ReferenceIdeal.Read.val_main_v19 (F := Ideal) x0 x1 x2 x3 x4 = Cert.Spec.out x0 x2 (Cert.ReferenceIdeal.Read.val_main_v5 (F := Ideal) x1 x3 x4) := by
  funext j
  obtain ⟨b, n, o, rfl⟩ : ∃ (b : Fin 8) (n : Fin 4096) (o : Fin 512), j = ix3 b n o := ⟨_, _, _, eq_ix3 j⟩
  rw [val_main_v19_apply, Cert.Spec.out_apply]
  refine Finset.sum_congr rfl fun k _ => ?_
  rw [lidx19, ridx19, v18_eq]

end Cert.RefValue

end
-- ==== Proof.lean ====
/-
  The certificate of the style-modulated batched product.

  Both programs compute, from activations `x : [8, 4096, 512]`, a base weight `W : [1, 512, 512]`, style vectors, a
  modulation matrix and a bias: the style column `s = style · mod_wᵀ + mod_b`; per sample `b` the modulated weight
  `W (0, i, o) · (s (b, i) + 1)`; its demodulation by the inverse root of each output column's squared norm plus `ε`;
  and the product of the sample's activations with its demodulated weight. The kernel forms the demodulated weight
  once per sample, at the sample's first row tile, keeps it in a buffer carried across grid points, and multiplies
  each 2048-row tile of the sample by it; the reference forms all eight weights at once and takes one batched
  product. At the exact instance both are the same function of the arguments (`Cert.Spec.out`): the operations are
  the same in the same order, a change of float format is the identity, and the two sums (over input channels, and
  over the contracted axis of the products) are the same finite sums. No algebraic law beyond that is used, so the
  finiteness of the inputs is never opened.

  The three frames: the kernel's two programs by their frame runs, the reference by its run with the result dropped.
  The idealization rewrote nothing, so there is nothing to preserve.
-/
import proofs.«145217_j249108103688_2_alg».proof.Defs
import proofs.«145217_j249108103688_2_alg».proof.Proof.Gen.Kernel
import proofs.«145217_j249108103688_2_alg».proof.Proof.Gen.Kernel.Skeleton
import proofs.«145217_j249108103688_2_alg».proof.Proof.Gen.Kernel.Launch
import proofs.«145217_j249108103688_2_alg».proof.Proof.Gen.Kernel.Points
import proofs.«145217_j249108103688_2_alg».proof.Proof.Gen.Kernel.Frame
import proofs.«145217_j249108103688_2_alg».proof.Proof.Gen.KernelIdeal
import proofs.«145217_j249108103688_2_alg».proof.Proof.Gen.KernelIdeal.Skeleton
import proofs.«145217_j249108103688_2_alg».proof.Proof.Gen.KernelIdeal.Launch
import proofs.«145217_j249108103688_2_alg».proof.Proof.Gen.KernelIdeal.Points
import proofs.«145217_j249108103688_2_alg».proof.Proof.Gen.KernelIdeal.Frame
import proofs.«145217_j249108103688_2_alg».proof.Proof.Gen.ReferenceIdeal
import proofs.«145217_j249108103688_2_alg».proof.Proof.Gen.Pre_finite_inputs
import proofs.«145217_j249108103688_2_alg».proof.Proof.Gen.KernelIdeal.Value
import proofs.«145217_j249108103688_2_alg».proof.Proof.Gen.ReferenceIdeal.Run
import proofs.«145217_j249108103688_2_alg».proof.Proof.Gen.ReferenceIdeal.Read
import proofs.«145217_j249108103688_2_alg».proof.Proof.Flush
import proofs.«145217_j249108103688_2_alg».proof.Proof.StyleCol
import proofs.«145217_j249108103688_2_alg».proof.Proof.Ref
import Idealize.ShloMosaic.Adequacy
import Idealize.ShloMosaic.Init

noncomputable section

namespace Cert.Proof

open Idealize.ShloMosaic Idealize.ShloMosaic.TcCoe Idealize.SL.Sem

/-! ## The kernel's run, read: its result array as the specification of the arguments -/

namespace KernelRun

open Cert.KernelIdeal Cert.KernelIdeal.Gen

variable (m : (ℓ : Loc nD τ sig) → Buf (Elt Ideal) ℓ) (ρ : Dev nD → PrngReg)

/-- The result the kernel ends with: the specification applied to the activations, the base weight and the style
    column that the reference's first six stages compute from the style vectors, the modulation matrix and the bias. -/
abbrev result (c : Dev nD) : Buf (Elt Ideal) ((c : Thread nD τ).loc main_v6) :=
  Cert.Spec.out (m ((c : Thread nD τ).loc main_arg0)) (m ((c : Thread nD τ).loc main_arg2))
    (Cert.ReferenceIdeal.Read.val_main_v5 (F := Ideal) (m ((c : Thread nD τ).loc main_arg1))
      (m ((c : Thread nD τ).loc main_arg3)) (m ((c : Thread nD τ).loc main_arg4)))

/-- The result array after the run: the activations and the weight reach the region unchanged, the column is the
    reference's. -/
theorem final (c : Dev nD) : (dats m 0 c).arrAt 3 cfg0.N = result m c := by
  rw [Cert.KernelIdeal.Flush.final m c, V_main_arg0, V_main_arg2, Cert.KernelIdeal.StyleCol.style_col m c]

/-- Every weakly fair execution of the idealized kernel ends with the result array at the specification of the
    arguments and the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end KernelRun

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments the kernel ends at the specification of its arguments
    (`KernelRun.run`) and the reference at its last stage of its arguments, which is the specification of them
    (`Cert.RefValue.ref_eq`): the same array. -/
theorem algebraic : Cert.algebraic_KernelIdeal_ReferenceIdeal := by
  intro m ρ m' ρ' _ hagree
  refine ⟨fun c => KernelRun.result m c, KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.RefValue.ref_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
